-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S16384x2048 .f32) (main_arg1 : FVec F S2048x6144 .f32) (main_arg2 : FVec F S6144 .f32) (main_arg3 : FVec F S2048x2048 .f32) (main_arg4 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x6144 .f32 := Host.absf main_arg1
  let main_cst_0 : FVec F S_ .f32 := constant S_ .f32 0x7F800000#32
  let main_v5 : FVec F S2048x6144 .f32 := broadcastInDim S2048x6144 ![] bcast_S_S2048x6144 main_cst_0
  let main_v6 : IVec S2048x6144 1 := cmpf .olt main_v4 main_v5
  let main_c_1 : IVec S_ 1 := constantI S_ 1 1#1
  let main_v7 : IVec S_ 1 := (fun x v => Host.reduce IntOp.andi x v reducesTo_S2048x6144_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 12
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S2048x2048, .bf16⟩
  | .hbm, ⟨10, _⟩ => ⟨S1x2048, .f32⟩
  | .hbm, ⟨11, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2048x6144_S2048x2048_0_4096 : S2048x6144.Slices ![0, 4096] S2048x2048
  bitsLt_bf16_f32 : FTy.bits .bf16 < FTy.bits .f32
  slices_S6144_S2048_4096 : S6144.Slices ![4096] S2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S16384x2048.size a
  hwx0_5 : ∀ i : grid0.Coords, EltTy.bits .f32 = 32 ∨ (Rect.block (s := S16384x2048) S256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S16384x6144 : Shape := ⟨2, ![16384, 6144]⟩
abbrev S1x6144 : Shape := ⟨2, ![1, 6144]⟩
abbrev S16384x16x1x128 : Shape := ⟨4, ![16384, 16, 1, 128]⟩
abbrev S16384x16x1x1 : Shape := ⟨4, ![16384, 16, 1, 1]⟩
abbrev S_ : Shape := ⟨0, ![]⟩
abbrev S16384x16x1 : Shape := ⟨3, ![16384, 16, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S16384x6144, .f32⟩
  | .hbm, ⟨6, _⟩ => ⟨S1x6144, .f32⟩
  | .hbm, ⟨7, _⟩ => ⟨S16384x6144, .f32⟩
  | .hbm, ⟨8, _⟩ => ⟨S16384x6144, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x16x1x128, .f32⟩
  | .hbm, ⟨13, _⟩ => ⟨S16384x16x1x128, .f32⟩
  | .hbm, ⟨14, _⟩ => ⟨S16384x16x1x128, .f32⟩
  | .hbm, ⟨15, _⟩ => ⟨S16384x16x1x1, .f32⟩
  | .hbm, ⟨16, _⟩ => ⟨S_, .f32⟩
  | .hbm, ⟨17, _⟩ => ⟨S16384x16x1x1, .f32⟩
  | .hbm, ⟨18, _⟩ => ⟨S16384x16x1x1, .f32⟩
  | .hbm, ⟨19, _⟩ => ⟨S_, .f32⟩
  | .hbm, ⟨20, _⟩ => ⟨S16384x16x1, .f32⟩
  | .hbm, ⟨21, _⟩ => ⟨S_, .f32⟩
  | .hbm, ⟨22, _⟩ => ⟨S16384x16x1, .f32⟩
  | .hbm, ⟨23, _⟩ => ⟨S16384x16x1, .f32⟩
  | .hbm, ⟨24, _⟩ => ⟨S16384x16x1x1, .f32⟩
  | .hbm, ⟨25, _⟩ => ⟨S16384x16x1x1, .f32⟩
  | .hbm, ⟨26, _⟩ => ⟨S16384x16x1x1, .f32⟩
  | .hbm, ⟨27, _⟩ => ⟨S_, .f32⟩
  | .hbm, ⟨28, _⟩ => ⟨S16384x16x1, .f32⟩
  | .hbm, ⟨29, _⟩ => ⟨S16384x16x1x1, .f32⟩
  | .hbm, ⟨30, _⟩ => ⟨S16384x16x1x1, .f32⟩
  | .hbm, ⟨31, _⟩ => ⟨S16384x16x1x128, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  bcast_S1x6144_S16384x6144_0_1 : S1x6144.BroadcastsInDim S16384x6144 (![0, 1] : Fin 2 → Fin S16384x6144.rank)
  slices_S16384x6144_S16384x2048_0_0 : S16384x6144.Slices ![0, 0] S16384x2048
  slices_S16384x6144_S16384x2048_0_2048 : S16384x6144.Slices ![0, 2048] S16384x2048
  slices_S16384x6144_S16384x2048_0_4096 : S16384x6144.Slices ![0, 4096] S16384x2048
  shapeCasts_S16384x2048_S16384x16x1x128 : S16384x2048.ShapeCasts S16384x16x1x128
  bcast_S_S16384x16x1x1 : S_.BroadcastsInDim S16384x16x1x1 (![] : Fin 0 → Fin S16384x16x1x1.rank)
  reducesTo_S16384x16x1x1_S16384x16x1_d3 : S16384x16x1x1.ReducesTo [3] S16384x16x1
  h_S_ : 0 < S_.numel
  bcast_S_S16384x16x1 : S_.BroadcastsInDim S16384x16x1 (![] : Fin 0 → Fin S16384x16x1.rank)
  bcast_S16384x16x1_S16384x16x1x1_0_1_2 : S16384x16x1.BroadcastsInDim S16384x16x1x1 (![0, 1, 2] : Fin 3 → Fin S16384x16x1x1.rank)
  shapeCasts_S16384x16x1x128_S16384x2048 : S16384x16x1x128.ShapeCasts S16384x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x6144_S16384x6144_1_0_0_1_n_n_wf : DotDims.WF S16384x2048 S2048x6144 S16384x6144 [1] [0] [0] [1] [] []
  dot_S16384x16x1x128_S16384x16x1x128_S16384x16x1x1_3_3_2_2_01_01_wf : DotDims.WF S16384x16x1x128 S16384x16x1x128 S16384x16x1x1 [3] [3] [2] [2] [0, 1] [0, 1]
  dot_S16384x16x1x1_S16384x16x1x128_S16384x16x1x128_3_2_2_3_01_01_wf : DotDims.WF S16384x16x1x1 S16384x16x1x128 S16384x16x1x128 [3] [2] [2] [3] [0, 1] [0, 1]
  dot_S16384x2048_S2048x2048_S16384x2048_1_0_0_1_n_n_wf : DotDims.WF S16384x2048 S2048x2048 S16384x2048 [1] [0] [0] [1] [] []

variable [Facts₀]

def dot_S16384x2048_S2048x6144_S16384x6144_1_0_0_1_n_n : DotDims S16384x2048 S2048x6144 S16384x6144 where
  lhsContracting := [1]
  rhsContracting := [0]
  lhsNonContracting := [0]
  rhsNonContracting := [1]
  lhsBatch := []
  rhsBatch := []
  wf := dot_S16384x2048_S2048x6144_S16384x6144_1_0_0_1_n_n_wf
def dot_S16384x16x1x128_S16384x16x1x128_S16384x16x1x1_3_3_2_2_01_01 : DotDims S16384x16x1x128 S16384x16x1x128 S16384x16x1x1 where
  lhsContracting := [3]
  rhsContracting := [3]
  lhsNonContracting := [2]
  rhsNonContracting := [2]
  lhsBatch := [0, 1]
  rhsBatch := [0, 1]
  wf := dot_S16384x16x1x128_S16384x16x1x128_S16384x16x1x1_3_3_2_2_01_01_wf
def dot_S16384x16x1x1_S16384x16x1x128_S16384x16x1x128_3_2_2_3_01_01 : DotDims S16384x16x1x1 S16384x16x1x128 S16384x16x1x128 where
  lhsContracting := [3]
  rhsContracting := [2]
  lhsNonContracting := [2]
  rhsNonContracting := [3]
  lhsBatch := [0, 1]
  rhsBatch := [0, 1]
  wf := dot_S16384x16x1x1_S16384x16x1x128_S16384x16x1x128_3_2_2_3_01_01_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Spec.lean ====
/-
  The function both programs compute, stated once over the five argument arrays.

  With one key per query the attention weight is the softmax of a single score, which is 1 whenever that score is a
  real number; the attention output is then the value row itself, and what remains is two affine maps in a row:

    value b k   = (sum over l of x[b, l] * w_qkv[l, 4096 + k]) + b_qkv[4096 + k]          (the value third of the packed projection)
    result b j  = (sum over k of value b k * w_proj[k, j]) + b_proj[j]

  Both sums are written in this order and this grouping on purpose: it is the order in which each program forms them, so
  no rearrangement of a sum of extended reals is ever needed to meet either side.
-/
import Idealize.ShloMosaic.PureOps.Ideal
import Idealize.ShloMosaic.Lib.ValueIdx

noncomputable section

namespace Cert.Spec

open Idealize.ShloMosaic Idealize.ShloMosaic.ValueIdx

/-- Column `k` of the value third of the packed projection: the packed axis has 6144 = 3 * 2048 columns, queries first,
    keys second, values last, so value column `k` is packed column `4096 + k`. -/
abbrev valueCol (k : Fin 2048) : Fin 6144 := ⟨4096 + k.val, by have := k.isLt; omega⟩

/-- Row `b`, column `k` of the value projection: the inner product of row `b` of `x` with packed column `4096 + k` of
    the weights, plus that column's bias. -/
def valueProj (x : (⟨2, ![16384, 2048]⟩ : Shape).Idx → EReal) (wqkv : (⟨2, ![2048, 6144]⟩ : Shape).Idx → EReal)
    (bqkv : (⟨1, ![6144]⟩ : Shape).Idx → EReal) (b : Fin 16384) (k : Fin 2048) : EReal :=
  (∑ l : Fin 2048, x (ix2 b l) * wqkv (ix2 l (valueCol k))) + bqkv (ix1 (valueCol k))

/-- The result array: the output projection of the value rows, index by index. -/
def result (x : (⟨2, ![16384, 2048]⟩ : Shape).Idx → EReal) (wqkv : (⟨2, ![2048, 6144]⟩ : Shape).Idx → EReal)
    (bqkv : (⟨1, ![6144]⟩ : Shape).Idx → EReal) (wproj : (⟨2, ![2048, 2048]⟩ : Shape).Idx → EReal)
    (bproj : (⟨1, ![2048]⟩ : Shape).Idx → EReal) : (⟨2, ![16384, 2048]⟩ : Shape).Idx → EReal :=
  fun i => (∑ k : Fin 2048, valueProj x wqkv bqkv (i 0) k * wproj (ix2 k (i 1))) + bproj (ix1 (i 1))

end Cert.Spec

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.RefRead.lean ====
/-
  The reference's result, read index by index, is `Cert.Spec.result` of its five arguments — when `x`, `w_qkv` and
  `b_qkv` hold real numbers.

  The reference forms the whole packed projection qkv = x · w_qkv + b_qkv, cuts it into queries, keys and values, views
  each [B, 2048] third as [B, 16, 1, 128] (16 heads, ONE position, 128 features), and runs attention over that one
  position. Per (b, h) there is one score s = (sum over d of q[b,h,0,d] * k[b,h,0,d]) * scale, and

    row maximum   max (-inf) (max over the one key of s, from -inf)  = s
    numerator     exp (s - s)                                        = 1      because s is a real number
    denominator   0 + (sum over the one key of 1)                    = 1
    weight        1 / 1                                              = 1

  s is real because every entry of qkv is a finite sum of products of real numbers plus a real number, and the scale is a
  float literal with a finite value (which finite value is irrelevant). The attention output is then
  sum over the one key of 1 * v[b,h,0,d] = v[b,h,0,d], and viewing [B, 16, 1, 128] as [B, 2048] again returns entry
  (b, 128 h + d), i.e. the value third at (b, k): packed column 4096 + k of qkv. The last two operations are the output
  projection and its bias, in the order `Cert.Spec.result` writes them.
-/
import proofs.«160148_j79568564126257_2_alg».proof.Proof.Gen.ReferenceIdeal.Read
import proofs.«160148_j79568564126257_2_alg».proof.Proof.Spec
import proofs.«160148_j79568564126257_2_alg».proof.Proof.LibRealValued

noncomputable section

namespace Cert.ReferenceIdeal.RefValue

open Cert.ReferenceIdeal Cert.ReferenceIdeal.Gen Cert.ReferenceIdeal.Read Idealize.ShloMosaic Idealize.ShloMosaic.ValueIdx
open Cert.RealValued Cert.Spec

variable (x0 : (⟨S16384x2048, .f32⟩ : BufTy).Contents (Elt Ideal)) (x1 : (⟨S2048x6144, .f32⟩ : BufTy).Contents (Elt Ideal))
  (x2 : (⟨S6144, .f32⟩ : BufTy).Contents (Elt Ideal)) (x3 : (⟨S2048x2048, .f32⟩ : BufTy).Contents (Elt Ideal))
  (x4 : (⟨S2048, .f32⟩ : BufTy).Contents (Elt Ideal))

/-! ## Index bookkeeping: the operand indices of the two plain matrix products and of the bias rows, by coordinates -/

theorem lidx0_ix2 (b : Fin 16384) (c : Fin 6144) (l : Fin 2048) : lidx_main_v0 (ix2 b c) l = ix2 b l :=
  funext fun a => by match a with | ⟨0, _⟩ => rfl | ⟨1, _⟩ => rfl
theorem ridx0_ix2 (b : Fin 16384) (c : Fin 6144) (l : Fin 2048) : ridx_main_v0 (ix2 b c) l = ix2 l c :=
  funext fun a => by match a with | ⟨0, _⟩ => rfl | ⟨1, _⟩ => rfl
theorem idx12_ix2 (b : Fin 16384) (c : Fin 6144) : idx_main_v1 (idx_main_v2 (ix2 b c)) = ix1 c :=
  funext fun a => by match a with | ⟨0, _⟩ => rfl
theorem lidx24_ix2 (b : Fin 16384) (j : Fin 2048) (k : Fin 2048) : lidx_main_v24 (ix2 b j) k = ix2 b k :=
  funext fun a => by match a with | ⟨0, _⟩ => rfl | ⟨1, _⟩ => rfl
theorem ridx24_ix2 (b : Fin 16384) (j : Fin 2048) (k : Fin 2048) : ridx_main_v24 (ix2 b j) k = ix2 k j :=
  funext fun a => by match a with | ⟨0, _⟩ => rfl | ⟨1, _⟩ => rfl
theorem idx2526_ix2 (b : Fin 16384) (j : Fin 2048) : idx_main_v25 (idx_main_v26 (ix2 b j)) = ix1 j :=
  funext fun a => by match a with | ⟨0, _⟩ => rfl

/-! ## Every entry of the packed projection, and every score, is a real number -/

/-- An entry of qkv = x · w_qkv + b_qkv: a sum of 2048 products of real numbers, plus a real number. -/
theorem qkv_isReal (hx0 : ∀ i, IsReal (x0 i)) (hx1 : ∀ i, IsReal (x1 i)) (hx2 : ∀ i, IsReal (x2 i)) (i : S16384x6144.Idx) :
    IsReal (val_main_v3 (F := Ideal) x0 x1 x2 i) := by
  rw [val_main_v3_apply, val_main_v0_apply, val_main_v2_apply, val_main_v1_apply]
  show IsReal (_ + _)
  exact IsReal.add (isReal_sum _ _ fun k _ => (hx0 _).mul (hx1 _)) (hx2 _)

/-- The score scale, the float nearest 1/sqrt 128, denotes a real number. -/
theorem scale_isReal : IsReal (FloatOps.ofBits (F := Ideal) .f32 0x3DB504F3#32) := by
  show IsReal (Ideal.ieee 8 23 (0x3DB504F3#32 : BitVec 32))
  exact ieee_isReal 8 23 (0x3DB504F3#32 : BitVec 32) (by decide)

/-- A score: the inner product over the 128 features of a query row and a key row, both rows of qkv, times the scale. -/
theorem score_isReal (hx0 : ∀ i, IsReal (x0 i)) (hx1 : ∀ i, IsReal (x1 i)) (hx2 : ∀ i, IsReal (x2 i)) (j : S16384x16x1x1.Idx) :
    IsReal (val_main_v12 (F := Ideal) x0 x1 x2 j) := by
  rw [val_main_v12_apply, val_main_v10_apply, val_main_v11_apply, val_main_cst_apply]
  show IsReal (_ * _)
  refine IsReal.mul (isReal_sum _ _ fun k _ => IsReal.mul ?_ ?_) scale_isReal
  · rw [val_main_v7_apply, val_main_v4_apply]; exact qkv_isReal x0 x1 x2 hx0 hx1 hx2 _
  · rw [val_main_v8_apply, val_main_v5_apply]; exact qkv_isReal x0 x1 x2 hx0 hx1 hx2 _

/-! ## The softmax over the one key is 1 -/

/-- The maximum over the one key, taken from minus infinity, is the score itself. -/
theorem rowMax_eq (j : S16384x16x1x1.Idx) :
    val_main_v13 (F := Ideal) x0 x1 x2 (idx_main_v16 j) = val_main_v12 (F := Ideal) x0 x1 x2 j := by
  have h : S16384x16x1x1.Reduces [3] S16384x16x1 := by decide
  unfold val_main_v13
  rw [Host.reduce_eq_fold_single FloatOps.maximumf _ _ reducesTo_S16384x16x1x1_S16384x16x1_d3 h h_S_]
  refine (fold_fin_one (FloatOps.maximumf (F := Ideal) (φ := .f32)) (Ideal.ofBits .f32 0xFF800000#32)
    (fun k : Fin 1 => val_main_v12 (F := Ideal) x0 x1 x2 (h.lift (idx_main_v16 j) k))).trans ?_
  show max (val_main_v12 (F := Ideal) x0 x1 x2 (h.lift (idx_main_v16 j) (0 : Fin 1))) (Ideal.ofBits .f32 0xFF800000#32) = _
  rw [max_negInf_right]
  refine congrArg (val_main_v12 (F := Ideal) x0 x1 x2) (funext fun a => Fin.ext ?_)
  have h2 : (j 2).val < 1 := (j 2).isLt
  have h3 : (j 3).val < 1 := (j 3).isLt
  match a with
  | ⟨0, _⟩ => rfl
  | ⟨1, _⟩ => rfl
  | ⟨2, _⟩ => show 0 = (j 2).val; omega
  | ⟨3, _⟩ => show 0 = (j 3).val; omega

/-- The softmax numerator exp (s - max) is exp 0 = 1: the score is a real number, so s - s = 0. -/
theorem expWeight_eq_one (hx0 : ∀ i, IsReal (x0 i)) (hx1 : ∀ i, IsReal (x1 i)) (hx2 : ∀ i, IsReal (x2 i)) (j : S16384x16x1x1.Idx) :
    val_main_v18 (F := Ideal) x0 x1 x2 j = 1 := by
  rw [val_main_v18_apply, val_main_v17_apply, val_main_v16_apply, val_main_v15_apply, val_main_v14_apply, val_main_cst_1_apply,
    rowMax_eq]
  show Ideal.exp (val_main_v12 (F := Ideal) x0 x1 x2 j
    - max (Ideal.ofBits .f32 0xFF800000#32) (val_main_v12 (F := Ideal) x0 x1 x2 j)) = 1
  rw [max_negInf_left, sub_self_of_isReal (score_isReal x0 x1 x2 hx0 hx1 hx2 j), exp_zero]

/-- The softmax denominator: 0 plus the one numerator. -/
theorem denom_eq_one (hx0 : ∀ i, IsReal (x0 i)) (hx1 : ∀ i, IsReal (x1 i)) (hx2 : ∀ i, IsReal (x2 i)) (j : S16384x16x1x1.Idx) :
    val_main_v20 (F := Ideal) x0 x1 x2 j = 1 := by
  rw [val_main_v20_apply, val_main_v19_apply, val_main_cst_2_apply, Fin.sum_univ_one, expWeight_eq_one x0 x1 x2 hx0 hx1 hx2]
  show Ideal.ofBits .f32 0x00000000#32 + 1 = 1
  rw [Ideal.ofBits_zero_f32, zero_add]

/-- The attention weight: 1 / 1. -/
theorem weight_eq_one (hx0 : ∀ i, IsReal (x0 i)) (hx1 : ∀ i, IsReal (x1 i)) (hx2 : ∀ i, IsReal (x2 i)) (j : S16384x16x1x1.Idx) :
    val_main_v21 (F := Ideal) x0 x1 x2 j = 1 := by
  rw [val_main_v21_apply, expWeight_eq_one x0 x1 x2 hx0 hx1 hx2, denom_eq_one x0 x1 x2 hx0 hx1 hx2]
  exact div_one_one

/-! ## The attention output is the value row -/

/-- The weighted sum over the one key is 1 * v = v. -/
theorem attnOut_apply (hx0 : ∀ i, IsReal (x0 i)) (hx1 : ∀ i, IsReal (x1 i)) (hx2 : ∀ i, IsReal (x2 i)) (i : S16384x16x1x128.Idx) :
    val_main_v22 (F := Ideal) x0 x1 x2 i = val_main_v9 (F := Ideal) x0 x1 x2 (ridx_main_v22 i 0) := by
  rw [val_main_v22_apply, Fin.sum_univ_one, weight_eq_one x0 x1 x2 hx0 hx1 hx2, one_mul]

/-- Viewed as [B, 2048] again, the attention output at (b, k) is the value projection at (b, k): splitting k into a head
    and a feature and joining them back is the identity, and the value third starts at packed column 4096. -/
theorem attnOut_ix2 (hx0 : ∀ i, IsReal (x0 i)) (hx1 : ∀ i, IsReal (x1 i)) (hx2 : ∀ i, IsReal (x2 i)) (b : Fin 16384) (k : Fin 2048) :
    val_main_v23 (F := Ideal) x0 x1 x2 (ix2 b k) = valueProj x0 x1 x2 b k := by
  rw [val_main_v23_apply, attnOut_apply x0 x1 x2 hx0 hx1 hx2, val_main_v9_apply, val_main_v6_apply]
  have hI : idx_main_v6 (idx_main_v9 (ridx_main_v22 (idx_main_v23 (ix2 b k)) 0)) = ix2 b (valueCol k) := by
    funext a; apply Fin.ext
    have hb : b.val < 16384 := b.isLt
    have hk : k.val < 2048 := k.isLt
    match a with
    | ⟨0, _⟩ =>
      show ((((b.val * 2048 + k.val) / 2048 * 16 + (b.val * 2048 + k.val) / 128 % 16) * 1 + 0) * 128
        + (b.val * 2048 + k.val) % 128) / 2048 = b.val
      omega
    | ⟨1, _⟩ =>
      show 4096 + ((((b.val * 2048 + k.val) / 2048 * 16 + (b.val * 2048 + k.val) / 128 % 16) * 1 + 0) * 128
        + (b.val * 2048 + k.val) % 128) % 2048 = 4096 + k.val
      omega
  rw [hI, val_main_v3_apply, val_main_v0_apply, val_main_v2_apply, val_main_v1_apply]
  simp only [lidx0_ix2, ridx0_ix2, idx12_ix2]
  rfl

/-! ## The reference's result -/

/-- The reference's last stage is `Cert.Spec.result` of the five arguments. -/
theorem result_eq (hx0 : ∀ i, IsReal (x0 i)) (hx1 : ∀ i, IsReal (x1 i)) (hx2 : ∀ i, IsReal (x2 i)) :
    val_main_v27 (F := Ideal) x0 x1 x2 x3 x4 = result x0 x1 x2 x3 x4 := by
  funext i
  obtain ⟨b, j, rfl⟩ : ∃ (b : Fin 16384) (j : Fin 2048), i = ix2 b j := ⟨i 0, i 1, eq_ix2 i⟩
  rw [val_main_v27_apply, val_main_v24_apply, val_main_v26_apply, val_main_v25_apply]
  simp only [lidx24_ix2, ridx24_ix2, idx2526_ix2, attnOut_ix2 x0 x1 x2 hx0 hx1 hx2]
  rfl

end Cert.ReferenceIdeal.RefValue

end
-- ==== Proof.Finite.lean ====
/-
  The precondition, read: every entry of the rows, of the packed weights and of the packed bias is a real number.

  The precondition is the conjunction, over the five arguments, of "all entries have |a| < +inf". A conjunction of one-bit
  words is 1 only if each is, and each conjunct then says that every entry of its argument is a real number. Only the
  three arguments the scores depend on are needed.
-/
import proofs.«160148_j79568564126257_2_alg».proof.Pre_finite_inputs
import proofs.«160148_j79568564126257_2_alg».proof.Proof.Gen.Pre_finite_inputs
import proofs.«160148_j79568564126257_2_alg».proof.Proof.LibRealValued

noncomputable section

namespace Cert.Pre_finite_inputs.Decode

open Cert.Pre_finite_inputs Cert.Pre_finite_inputs.Gen Idealize.ShloMosaic Idealize.ShloMosaic.ValueIdx Cert.RealValued

/-- The precondition gives: every entry of the rows, of the packed weights and of the packed bias is a real number. -/
theorem real_of_pre (a0 : FVec Ideal S16384x2048 .f32) (a1 : FVec Ideal S2048x6144 .f32) (a2 : FVec Ideal S6144 .f32)
    (a3 : FVec Ideal S2048x2048 .f32) (a4 : FVec Ideal S2048 .f32) (h : fn (F := Ideal) a0 a1 a2 a3 a4 = fun _ => 1#1) :
    (∀ i, IsReal (a0 i)) ∧ (∀ i, IsReal (a1 i)) ∧ (∀ i, IsReal (a2 i)) := by
  have h0 := congrFun h ix0
  dsimp only [fn, fn_part1] at h0
  have h1 := (IntOp.andi_eq_one.1 h0).1
  have h2 := (IntOp.andi_eq_one.1 h1).1
  obtain ⟨h3, h12⟩ := IntOp.andi_eq_one.1 h2
  obtain ⟨h03, h07⟩ := IntOp.andi_eq_one.1 h3
  exact ⟨all_isReal a0 _ _ _ _ h03, all_isReal a1 _ _ _ _ h07, all_isReal a2 _ _ _ _ h12⟩

end Cert.Pre_finite_inputs.Decode

end
-- ==== Proof.BodyValue.lean ====
/-
  What the kernel body computes on one grid point's blocks, read at one element.

  The body loads a [256, 2048] block of rows, two whole [2048, 2048] weight matrices and two [1, 2048] bias rows, and
  stores

    ((rows · W1 + bias1) · W2) + bias2,

  each matrix product into a zero accumulator and each bias row broadcast over the 256 rows. The changes of float format
  between the steps are the identity on extended reals. At element (p, q) of the block this is

    (sum over k of ((sum over l of rows[p, l] * W1[l, k]) + bias1[0, k]) * W2[k, q]) + bias2[0, q].
-/
import proofs.«160148_j79568564126257_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The block matrix product: operand indices by coordinates -/

theorem lhs_row (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl
theorem lhs_contr (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_contr (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_col (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- A [256, 2048] by [2048, 2048] product into the zero accumulator, at (p, q): the sum over the 2048 shared coordinates of
    row p of the left operand against column q of the right. -/
theorem blockMatmul_apply {φ₁ φ₂ : FTy} (A : FVec Ideal S256x2048 φ₁) (B : FVec Ideal S2048x2048 φ₂) (p : Fin 256) (q : Fin 2048) :
    matmul dot_S256x2048_S2048x2048_S256x2048_1_0_0_1_n_n none A B (constant (F := Ideal) S256x2048 .f32 0x00000000#32) (ix2 p q)
      = ∑ k : Fin 2048, A (ix2 p k) * B (ix2 k q) := by
  simp only [matmul]
  rw [Ideal.matmul_constant_zero_apply,
    ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q)
      ((contrEquiv1 dot_S256x2048_S2048x2048_S256x2048_1_0_0_1_n_n 2048 rfl rfl).symm k) = ix2 p k :=
    funext fun a => Fin.ext (by
      match a with
      | ⟨0, _⟩ => exact lhs_row _ _
      | ⟨1, _⟩ => exact (lhs_contr _ _).trans hk)
  have er : dot_S256x2048_S2048x2048_S256x2048_1_0_0_1_n_n.rhsIdx (ix2 p q)
      ((contrEquiv1 dot_S256x2048_S2048x2048_S256x2048_1_0_0_1_n_n 2048 rfl rfl).symm k) = ix2 k q :=
    funext fun a => Fin.ext (by
      match a with
      | ⟨0, _⟩ => exact (rhs_contr _ _).trans hk
      | ⟨1, _⟩ => exact rhs_col _ _)
  rw [el, er]

/-! ## The payload at an element -/

/-- The stored block at (p, q), as the two nested sums. -/
theorem payload_apply (rows : Vec Ideal S256x2048 .f32) (w1 : Vec Ideal S2048x2048 .bf16) (bias1 : Vec Ideal S1x2048 .f32)
    (w2 : Vec Ideal S2048x2048 .bf16) (bias2 : Vec Ideal S1x2048 .f32) (p : Fin 256) (q : Fin 2048) :
    k0_pay1 (F := Ideal) rows w1 bias1 w2 bias2 (ix2 p q)
      = (∑ k : Fin 2048, ((∑ l : Fin 2048, rows (ix2 p l) * w1 (ix2 l k)) + bias1 (ix2 (0 : Fin 1) k)) * w2 (ix2 k q))
        + bias2 (ix2 (0 : Fin 1) q) := by
  unfold k0_pay1
  simp only [shapeCast_self]
  rw [addf_apply, blockMatmul_apply, broadcastTo_1b_ab_apply]
  refine congrArg (· + bias2 (ix2 (0 : Fin 1) q)) (Finset.sum_congr rfl fun k _ => ?_)
  rw [truncf_apply, addf_apply, blockMatmul_apply, broadcastTo_1b_ab_apply]
  rfl

end Cert.KernelIdeal.BodyValue

end
-- ==== Proof.HostPrefix.lean ====
/-
  The four arrays the host prepares before the kernel is launched, read at an element.

  Before the launch the host cuts the value third out of the packed weights and bias (columns 4096 … 6143 of the 6144),
  and lays each bias vector out as a [1, 2048] row; it also changes the float format of the two weight matrices, which is
  the identity on extended reals. So, in terms of the argument arrays,

    value weights [l, k] = w_qkv[l, 4096 + k]        value bias row [0, k] = b_qkv[4096 + k]
    projection weights [k, q] = w_proj[k, q]         projection bias row [0, q] = b_proj[q].
-/
import proofs.«160148_j79568564126257_2_alg».proof.Proof.Gen.KernelIdeal.Frame
import proofs.«160148_j79568564126257_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo Cert.Spec

variable (m : (ℓ : Loc nD τ sig) → Buf (Elt Ideal) ℓ)

/-! ## The arrays as the host operations' terms -/

theorem valueWeights_eq (c : Dev nD) :
    @Eq (S2048x2048.Idx → EReal) (V m c main_call0_v1)
      (truncf (F := Ideal) .bf16 (extractStridedSlice S2048x2048 ![0, 4096] (m ((c : Thread nD τ).loc main_arg1))
          slices_S2048x6144_S2048x2048_0_4096) bitsLt_bf16_f32) := by
  dsimp only [Gen.V, Gen.hostOps0]; after_results; rfl

theorem valueBias_eq (c : Dev nD) :
    (V m c main_call0_v3 : S1x2048.Idx → EReal)
      = shapeCast S1x2048 (extractStridedSlice S2048 ![4096] (m ((c : Thread nD τ).loc main_arg2)) slices_S6144_S2048_4096)
          shapeCasts_S2048_S1x2048 := by
  dsimp only [Gen.V, Gen.hostOps0]; after_results; rfl

theorem projWeights_eq (c : Dev nD) :
    @Eq (S2048x2048.Idx → EReal) (V m c main_call0_v4)
      (truncf (F := Ideal) (s := S2048x2048) (φ := .f32) .bf16 (m ((c : Thread nD τ).loc main_arg3)) bitsLt_bf16_f32) := by
  dsimp only [Gen.V, Gen.hostOps0]; after_results; rfl

theorem projBias_eq (c : Dev nD) :
    (V m c main_call0_v5 : S1x2048.Idx → EReal) = shapeCast S1x2048 (m ((c : Thread nD τ).loc main_arg4)) shapeCasts_S2048_S1x2048 := by
  dsimp only [Gen.V, Gen.hostOps0]; after_results; rfl

/-! ## At an element -/

/-- The value weights at (l, k): packed column 4096 + k of row l. -/
theorem valueWeights_apply (c : Dev nD) (l k : Fin 2048) :
    (V m c main_call0_v1 : S2048x2048.Idx → EReal) (ix2 l k) = m ((c : Thread nD τ).loc main_arg1) (ix2 l (valueCol k)) := by
  rw [valueWeights_eq, truncf_apply]
  exact slice2_axis1_eq 4096 _ _ l k

/-- The value bias row at (0, k): packed entry 4096 + k. -/
theorem valueBias_apply (c : Dev nD) (k : Fin 2048) :
    (V m c main_call0_v3 : S1x2048.Idx → EReal) (ix2 (0 : Fin 1) k) = m ((c : Thread nD τ).loc main_arg2) (ix1 (valueCol k)) := by
  rw [valueBias_eq, shapeCast_a_1a_apply]
  exact extractStridedSlice_apply _ _ _ (ix1 k) (ix1 (valueCol k)) (fun a => by match a with | ⟨0, _⟩ => rfl)

/-- The projection weights at (k, q): unchanged. -/
theorem projWeights_apply (c : Dev nD) (k q : Fin 2048) :
    (V m c main_call0_v4 : S2048x2048.Idx → EReal) (ix2 k q) = m ((c : Thread nD τ).loc main_arg3) (ix2 k q) := by
  rw [projWeights_eq, truncf_apply]

/-- The projection bias row at (0, q): entry q. -/
theorem projBias_apply (c : Dev nD) (q : Fin 2048) :
    (V m c main_call0_v5 : S1x2048.Idx → EReal) (ix2 (0 : Fin 1) q) = m ((c : Thread nD τ).loc main_arg4) (ix1 q) := by
  rw [projBias_eq, shapeCast_a_1a_apply]

end Cert.KernelIdeal.HostPrefix

end
-- ==== Proof.ArrayValue.lean ====
/-
  The kernel's result array after the run is `Cert.Spec.result` of the five argument arrays.

  The grid has 64 points. Point t reads rows 256 t … 256 t + 255 of `x` (all 2048 columns), reads the four prepared
  arrays whole (their block index never moves), and writes back rows 256 t … 256 t + 255 of the result. The output
  projection of a value row depends on that row alone, so the block a point writes back is the restriction of
  `Cert.Spec.result` to the point's rows: the body's payload at (p, q) is the result's entry at (256 t + p, q). Row r lies
  in the block of point r / 256, so the 64 blocks cover the array and the array ends holding `Cert.Spec.result`.
-/
import proofs.«160148_j79568564126257_2_alg».proof.Proof.Gen.KernelIdeal.Value
import proofs.«160148_j79568564126257_2_alg».proof.Proof.BodyValue
import proofs.«160148_j79568564126257_2_alg».proof.Proof.HostPrefix
import proofs.«160148_j79568564126257_2_alg».proof.Proof.Spec

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Spec Cert.KernelIdeal.BodyValue Cert.KernelIdeal.HostPrefix
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- A grid point's number is below 64. -/
theorem point_lt (t : Fin cfg0.N) : t.val < 64 := lt_of_lt_of_eq t.isLt N_0

/-- Which block of its array each window uses at point t: block row t of `x` and of the result, block (0, 0) of the four
    prepared arrays. Decided over the 64 points. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The five input blocks at point t, read at an element -/

/-- The rows block at (p, l) is `x` at (256 t + p, l). -/
theorem rows_apply (c : Dev nD) (t : Fin cfg0.N) (p : Fin 256) (l : Fin 2048) (r : Fin 16384) (hr : r.val = t.val * 256 + p.val) :
    iblk m c 0 t (ix2 p l) = m ((c : Thread nD τ).loc main_arg0) (ix2 r l) := by
  show V m c main_arg0 (((cfg0.win 0).blk t).view.emb (ix2 p l)) = _
  have h : ((cfg0.win 0).blk t).view.emb (ix2 p l) = ix2 r l := by
    funext a; apply Fin.ext
    obtain ⟨e0, e1, -⟩ := blockIndex t
    match a with
    | ⟨0, _⟩ => show win0_0.index t (0 : Fin 2) * 256 + 1 * p.val = r.val; omega
    | ⟨1, _⟩ => show win0_0.index t (1 : Fin 2) * 2048 + 1 * l.val = l.val; omega
  rw [V_main_arg0]
  exact congrArg (m ((c : Thread nD τ).loc main_arg0)) h

/-- The value-weights block is the whole prepared array: at (l, k), packed column 4096 + k of row l of `w_qkv`. -/
theorem valueWeightsBlock_apply (c : Dev nD) (t : Fin cfg0.N) (l k : Fin 2048) :
    iblk m c 1 t (ix2 l k) = m ((c : Thread nD τ).loc main_arg1) (ix2 l (valueCol k)) := by
  show V m c main_call0_v1 (((cfg0.win 1).blk t).view.emb (ix2 l k)) = _
  have h : ((cfg0.win 1).blk t).view.emb (ix2 l k) = ix2 l k := by
    funext a; apply Fin.ext
    obtain ⟨-, -, e0, e1, -⟩ := blockIndex t
    match a with
    | ⟨0, _⟩ => show win0_1.index t (0 : Fin 2) * 2048 + 1 * l.val = l.val; omega
    | ⟨1, _⟩ => show win0_1.index t (1 : Fin 2) * 2048 + 1 * k.val = k.val; omega
  exact (congrArg (V m c main_call0_v1) h).trans (valueWeights_apply m c l k)

/-- The value-bias block is the whole prepared row: at (0, k), entry 4096 + k of `b_qkv`. -/
theorem valueBiasBlock_apply (c : Dev nD) (t : Fin cfg0.N) (k : Fin 2048) :
    iblk m c 2 t (ix2 (0 : Fin 1) k) = m ((c : Thread nD τ).loc main_arg2) (ix1 (valueCol k)) := by
  show V m c main_call0_v3 (((cfg0.win 2).blk t).view.emb (ix2 (0 : Fin 1) k)) = _
  have h : ((cfg0.win 2).blk t).view.emb (ix2 (0 : Fin 1) k) = ix2 (0 : Fin 1) k := by
    funext a; apply Fin.ext
    obtain ⟨-, -, -, -, e0, e1, -⟩ := blockIndex t
    match a with
    | ⟨0, _⟩ => show win0_2.index t (0 : Fin 2) * 1 + 1 * 0 = 0; omega
    | ⟨1, _⟩ => show win0_2.index t (1 : Fin 2) * 2048 + 1 * k.val = k.val; omega
  exact (congrArg (V m c main_call0_v3) h).trans (valueBias_apply m c k)

/-- The projection-weights block is the whole prepared array: `w_proj`. -/
theorem projWeightsBlock_apply (c : Dev nD) (t : Fin cfg0.N) (k q : Fin 2048) :
    iblk m c 3 t (ix2 k q) = m ((c : Thread nD τ).loc main_arg3) (ix2 k q) := by
  show V m c main_call0_v4 (((cfg0.win 3).blk t).view.emb (ix2 k q)) = _
  have h : ((cfg0.win 3).blk t).view.emb (ix2 k q) = ix2 k q := by
    funext a; apply Fin.ext
    obtain ⟨-, -, -, -, -, -, e0, e1, -⟩ := blockIndex t
    match a with
    | ⟨0, _⟩ => show win0_3.index t (0 : Fin 2) * 2048 + 1 * k.val = k.val; omega
    | ⟨1, _⟩ => show win0_3.index t (1 : Fin 2) * 2048 + 1 * q.val = q.val; omega
  exact (congrArg (V m c main_call0_v4) h).trans (projWeights_apply m c k q)

/-- The projection-bias block is the whole prepared row: at (0, q), entry q of `b_proj`. -/
theorem projBiasBlock_apply (c : Dev nD) (t : Fin cfg0.N) (q : Fin 2048) :
    iblk m c 4 t (ix2 (0 : Fin 1) q) = m ((c : Thread nD τ).loc main_arg4) (ix1 q) := by
  show V m c main_call0_v5 (((cfg0.win 4).blk t).view.emb (ix2 (0 : Fin 1) q)) = _
  have h : ((cfg0.win 4).blk t).view.emb (ix2 (0 : Fin 1) q) = ix2 (0 : Fin 1) q := by
    funext a; apply Fin.ext
    obtain ⟨-, -, -, -, -, -, -, -, e0, e1, -⟩ := blockIndex t
    match a with
    | ⟨0, _⟩ => show win0_4.index t (0 : Fin 2) * 1 + 1 * 0 = 0; omega
    | ⟨1, _⟩ => show win0_4.index t (1 : Fin 2) * 2048 + 1 * q.val = q.val; omega
  exact (congrArg (V m c main_call0_v5) h).trans (projBias_apply m c q)

/-! ## What a point writes back -/

/-- The body's payload at (p, q) is the result's entry at (r, q), for blocks that read the argument arrays as the point's
    blocks do: the rows block at row r, the four prepared blocks whole. Stated over plain arrays and blocks. -/
theorem payload_eq_result (A0 : S16384x2048.Idx → EReal) (A1 : S2048x6144.Idx → EReal) (A2 : S6144.Idx → EReal)
    (A3 : S2048x2048.Idx → EReal) (A4 : S2048.Idx → EReal)
    (rows : Vec Ideal S256x2048 .f32) (w1 : Vec Ideal S2048x2048 .bf16) (bias1 : Vec Ideal S1x2048 .f32)
    (w2 : Vec Ideal S2048x2048 .bf16) (bias2 : Vec Ideal S1x2048 .f32) (p : Fin 256) (q : Fin 2048) (r : Fin 16384)
    (h0 : ∀ l : Fin 2048, rows (ix2 p l) = A0 (ix2 r l))
    (h1 : ∀ l k : Fin 2048, w1 (ix2 l k) = A1 (ix2 l (valueCol k)))
    (h2 : ∀ k : Fin 2048, bias1 (ix2 (0 : Fin 1) k) = A2 (ix1 (valueCol k)))
    (h3 : ∀ k q : Fin 2048, w2 (ix2 k q) = A3 (ix2 k q))
    (h4 : ∀ q : Fin 2048, bias2 (ix2 (0 : Fin 1) q) = A4 (ix1 q)) :
    k0_pay1 (F := Ideal) rows w1 bias1 w2 bias2 (ix2 p q) = result A0 A1 A2 A3 A4 (ix2 r q) := by
  rw [payload_apply]
  show _ = (∑ k : Fin 2048, ((∑ l : Fin 2048, A0 (ix2 r l) * A1 (ix2 l (valueCol k))) + A2 (ix1 (valueCol k))) * A3 (ix2 k q))
    + A4 (ix1 q)
  simp only [h0, h1, h2, h3, h4]

/-- The result of the argument arrays as launched on core `c`. -/
abbrev resultOf (c : Dev nD) : S16384x2048.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- Point t writes back rows 256 t … 256 t + 255 of the result. -/
theorem flushed_eq (c : Dev nD) (t : Fin cfg0.N) :
    (dats m 0 c).flushed 5 t = ((cfg0.win 5).blk t).view.read (Elt Ideal) (resultOf m c) := by
  rw [Value.flushed5]
  unfold out0_5
  rw [View.canon_unit_zero offsets_zero]
  simp only [View.ld_unit_zero (S := S256x2048) offsets_zero, View.ld_unit_zero (S := S2048x2048) offsets_zero,
    View.ld_unit_zero (S := S1x2048) offsets_zero]
  funext j
  obtain ⟨p, q, rfl⟩ : ∃ (p : Fin 256) (q : Fin 2048), j = ix2 p q := ⟨j 0, j 1, eq_ix2 j⟩
  have ht := point_lt t
  have hp : p.val < 256 := p.isLt
  let r : Fin 16384 := ⟨t.val * 256 + p.val, by omega⟩
  have hr : r.val = t.val * 256 + p.val := rfl
  have hemb : ((cfg0.win 5).blk t).view.emb (ix2 p q) = ix2 r q := by
    funext a; apply Fin.ext
    obtain ⟨-, -, -, -, -, -, -, -, -, -, e0, e1⟩ := blockIndex t
    match a with
    | ⟨0, _⟩ => show win0_5.index t (0 : Fin 2) * 256 + 1 * p.val = r.val; omega
    | ⟨1, _⟩ => show win0_5.index t (1 : Fin 2) * 2048 + 1 * q.val = q.val; omega
  show k0_pay1 (F := Ideal) (iblk m c 0 t) (iblk m c 1 t) (iblk m c 2 t) (iblk m c 3 t) (iblk m c 4 t) (ix2 p q)
    = resultOf m c (((cfg0.win 5).blk t).view.emb (ix2 p q))
  rw [hemb]
  exact payload_eq_result (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) p q r
    (fun l => rows_apply m c t p l r hr) (fun l k => valueWeightsBlock_apply m c t l k)
    (fun k => valueBiasBlock_apply m c t k) (fun k q => projWeightsBlock_apply m c t k q)
    (fun q => projBiasBlock_apply m c t q)

/-! ## The blocks cover the array -/

/-- An index of the result array is in point t's block iff its row is one of the point's 256 and its column any. -/
theorem mem_block (t : Fin cfg0.N) (i : S16384x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v0).slice (win0_5.rect t)).set ↔ _
  rw [View.set_slice_whole, Rect.mem_set_unit]
  exact Iff.rfl

/-- Row r of the result is written back by point r / 256. -/
theorem covered (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  let t : Fin cfg0.N := ⟨(i 0).val / 256, by show (i 0).val / 256 < grid0.N; rw [N_0]; omega⟩
  have htv : t.val = (i 0).val / 256 := rfl
  refine ⟨t, flush0_5 t, ?_⟩
  rw [mem_block]
  obtain ⟨-, -, -, -, -, -, -, -, -, -, e0, e1⟩ := blockIndex t
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 2048 ≤ (i 1).val ∧ (i 1).val < win0_5.index t (1 : Fin 2) * 2048 + 2048
    omega

/-! ## The array after the run, and the run -/

/-- The result array after the run. -/
theorem final (c : Dev nD) : (dats m 0 c).arrAt 5 cfg0.N = resultOf m c :=
  (dats m 0 c).arrAt_eq_of_cover 5 (resultOf m c) (fun t _ => flushed_eq m c t) covered

/-- Every weakly fair execution of the kernel's program terminates with the result array holding `Cert.Spec.result` of the
    arguments, and the arguments unchanged. -/
theorem run : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.lean ====
/-
  Two affine maps in a row against single-position attention.

  The kernel computes out = (x · W_v + b_v) · W_proj + b_proj, where W_v and b_v are the value third (columns 4096 … 6143)
  of the packed projection's weights and bias. The reference computes the whole packed projection, splits it into queries,
  keys and values, and runs 16-head attention over a sequence of length ONE before the output projection. With one key the
  softmax is exp (s - s) / (0 + exp (s - s)) for the single score s; under the precondition every input is a real number,
  so s — a finite sum of products of real numbers times a finite scale — is a real number, s - s = 0, and the weight is 1.
  The attention output is then the value row, and both programs are the same function of the arguments, index by index
  (`Cert.Spec.result`): no sum is rearranged, and the queries, the keys and the scale enter only through "s is real".

  The three frames are the generated ones; the ideal pass rewrote nothing, so the idealization claim is trivial.
  The modules: Spec (the function), LibRealValued (real-valued extended reals, the softmax of one score), RefRead (the
  reference is the function), Finite (the precondition read), BodyValue (the kernel body at an element), HostPrefix (the
  arrays prepared before the launch), ArrayValue (from the 64 blocks to the result array).
-/
import proofs.«160148_j79568564126257_2_alg».proof.Defs
import proofs.«160148_j79568564126257_2_alg».proof.Proof.Gen.Kernel
import proofs.«160148_j79568564126257_2_alg».proof.Proof.Gen.Kernel.Skeleton
import proofs.«160148_j79568564126257_2_alg».proof.Proof.Gen.Kernel.Launch
import proofs.«160148_j79568564126257_2_alg».proof.Proof.Gen.Kernel.Points
import proofs.«160148_j79568564126257_2_alg».proof.Proof.Gen.Kernel.Frame
import proofs.«160148_j79568564126257_2_alg».proof.Proof.Gen.KernelIdeal
import proofs.«160148_j79568564126257_2_alg».proof.Proof.Gen.KernelIdeal.Skeleton
import proofs.«160148_j79568564126257_2_alg».proof.Proof.Gen.KernelIdeal.Launch
import proofs.«160148_j79568564126257_2_alg».proof.Proof.Gen.KernelIdeal.Points
import proofs.«160148_j79568564126257_2_alg».proof.Proof.Gen.KernelIdeal.Frame
import proofs.«160148_j79568564126257_2_alg».proof.Proof.Gen.ReferenceIdeal
import proofs.«160148_j79568564126257_2_alg».proof.Proof.Gen.KernelIdeal.Value
import proofs.«160148_j79568564126257_2_alg».proof.Proof.Gen.ReferenceIdeal.Run
import proofs.«160148_j79568564126257_2_alg».proof.Proof.Gen.ReferenceIdeal.Read
import proofs.«160148_j79568564126257_2_alg».proof.Proof.Gen.Pre_finite_inputs
import proofs.«160148_j79568564126257_2_alg».proof.Proof.RefRead
import proofs.«160148_j79568564126257_2_alg».proof.Proof.Finite
import proofs.«160148_j79568564126257_2_alg».proof.Proof.ArrayValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result array at `Cert.Spec.result` of the
    arguments: the kernel by its 64 blocks, the reference because, the inputs being real numbers, each softmax over its one
    key is 1. -/
theorem algebraic : Cert.algebraic_KernelIdeal_ReferenceIdeal := by
  intro m ρ m' ρ' hpre hagree
  refine ⟨fun c => Cert.KernelIdeal.ArrayValue.resultOf m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Pre_finite_inputs.Decode.real_of_pre _ _ _ _ _ (hpre c)
  rw [Cert.ReferenceIdeal.Read.val_main_v27_eq, (hagree c).1, (hagree c).2.1, (hagree c).2.2.1, (hagree c).2.2.2.1,
    (hagree c).2.2.2.2]
  exact Cert.ReferenceIdeal.RefValue.result_eq _ _ _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
